-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x16 : Shape := ⟨2, ![16, 16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg5 : FVec F S16 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x16 .f32) (main_arg5 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x16 : Shape := ⟨2, ![16, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S100000x1 : Shape := ⟨2, ![100000, 1]⟩

abbrev nBuf : Space → Nat
  | .hbm => 106
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x16, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x16, .f32⟩
  | .hbm, ⟨58, _⟩ => ⟨S3300000x1, .f32⟩
  | .hbm, ⟨59, _⟩ => ⟨S3300000x16, .f32⟩
  | .hbm, ⟨60, _⟩ => ⟨S3300000x16, .f32⟩
  | .hbm, ⟨61, _⟩ => ⟨S_, .f32⟩
  | .hbm, ⟨62, _⟩ => ⟨S100000x16, .f32⟩
  | .hbm, ⟨63, _⟩ => ⟨S3300000x1, .i32⟩
  | .hbm, ⟨64, _⟩ => ⟨S100000x16, .f32⟩
  | .hbm, ⟨65, _⟩ => ⟨S1x16, .f32⟩
  | .hbm, ⟨66, _⟩ => ⟨S100000x16, .f32⟩
  | .hbm, ⟨67, _⟩ => ⟨S100000x16, .f32⟩
  | .hbm, ⟨68, _⟩ => ⟨S_, .f32⟩
  | .hbm, ⟨69, _⟩ => ⟨S100000x16, .f32⟩
  | .hbm, ⟨70, _⟩ => ⟨S100000x16, .f32⟩
  | .hbm, ⟨71, _⟩ => ⟨S100000x16, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000x16, .f32⟩
  | .hbm, ⟨81, _⟩ => ⟨S3300000x1, .f32⟩
  | .hbm, ⟨82, _⟩ => ⟨S3300000x16, .f32⟩
  | .hbm, ⟨83, _⟩ => ⟨S3300000x16, .f32⟩
  | .hbm, ⟨84, _⟩ => ⟨S_, .f32⟩
  | .hbm, ⟨85, _⟩ => ⟨S100000x16, .f32⟩
  | .hbm, ⟨86, _⟩ => ⟨S3300000x1, .i32⟩
  | .hbm, ⟨87, _⟩ => ⟨S100000x16, .f32⟩
  | .hbm, ⟨88, _⟩ => ⟨S1x16, .f32⟩
  | .hbm, ⟨89, _⟩ => ⟨S100000x16, .f32⟩
  | .hbm, ⟨90, _⟩ => ⟨S100000x16, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S100000, .f32⟩
  | .hbm, ⟨95, _⟩ => ⟨S100000, .f32⟩
  | .hbm, ⟨96, _⟩ => ⟨S100000x1, .f32⟩
  | .hbm, ⟨97, _⟩ => ⟨S100000x16, .f32⟩
  | .hbm, ⟨98, _⟩ => ⟨S100000x16, .f32⟩
  | .hbm, ⟨99, _⟩ => ⟨S100000x16, .f32⟩
  | .hbm, ⟨100, _⟩ => ⟨S_, .f32⟩
  | .hbm, ⟨101, _⟩ => ⟨S100000, .f32⟩
  | .hbm, ⟨102, _⟩ => ⟨S100000x1, .f32⟩
  | .hbm, ⟨103, _⟩ => ⟨S100000x1, .f32⟩
  | .hbm, ⟨104, _⟩ => ⟨S100000x16, .f32⟩
  | .hbm, ⟨105, _⟩ => ⟨S100000x16, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S16x16, .f32⟩
  | .local _ .vmem, ⟨8, _⟩ => ⟨S5000x16, .f32⟩
  | .local _ .vmem, ⟨9, _⟩ => ⟨S5000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_call2_cst : Ref sig .tc := ⟨.hbm, 91, rfl⟩
abbrev main_call2_v0 : Ref sig .tc := ⟨.hbm, 92, rfl⟩
abbrev main_call2_cst_0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_cst_1 : Ref sig .tc := ⟨.hbm, 100, rfl⟩
abbrev main_call2_v7 : Ref sig .tc := ⟨.hbm, 101, rfl⟩
abbrev main_call2_v8 : Ref sig .tc := ⟨.hbm, 102, rfl⟩
abbrev main_call2_v9 : Ref sig .tc := ⟨.hbm, 103, rfl⟩
abbrev main_call2_v10 : Ref sig .tc := ⟨.hbm, 104, rfl⟩
abbrev main_v66 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S5000x16_S5000x16 : S5000x16.ShapeCasts S5000x16
  inb_S16x16_S16x16_0_0 : ∀ a, (![0, 0] : Fin 2 → Nat) a + S16x16.size a ≤ S16x16.size a
  h_S16x16 : 0 < S16x16.numel
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x16_S5000x16_1_0_0_1_n_n_wf : DotDims.WF S5000x16 S16x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x16.size a ≤ S16x16.size a
  hwx1_1 : ∀ i : grid1.Coords, EltTy.bits .f32 = 32 ∨ (Rect.block (s := S16x16) S16x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x16 : Shape := ⟨2, ![16, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x1 : Shape := ⟨2, ![100000, 1]⟩

abbrev nBuf : Space → Nat
  | .hbm => 106
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x16, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x16, .f32⟩
  | .hbm, ⟨58, _⟩ => ⟨S3300000x1, .f32⟩
  | .hbm, ⟨59, _⟩ => ⟨S3300000x16, .f32⟩
  | .hbm, ⟨60, _⟩ => ⟨S3300000x16, .f32⟩
  | .hbm, ⟨61, _⟩ => ⟨S_, .f32⟩
  | .hbm, ⟨62, _⟩ => ⟨S100000x16, .f32⟩
  | .hbm, ⟨63, _⟩ => ⟨S3300000x1, .i32⟩
  | .hbm, ⟨64, _⟩ => ⟨S100000x16, .f32⟩
  | .hbm, ⟨65, _⟩ => ⟨S1x16, .f32⟩
  | .hbm, ⟨66, _⟩ => ⟨S100000x16, .f32⟩
  | .hbm, ⟨67, _⟩ => ⟨S100000x16, .f32⟩
  | .hbm, ⟨68, _⟩ => ⟨S_, .f32⟩
  | .hbm, ⟨69, _⟩ => ⟨S100000x16, .f32⟩
  | .hbm, ⟨70, _⟩ => ⟨S100000x16, .f32⟩
  | .hbm, ⟨71, _⟩ => ⟨S100000x16, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000x16, .f32⟩
  | .hbm, ⟨81, _⟩ => ⟨S3300000x1, .f32⟩
  | .hbm, ⟨82, _⟩ => ⟨S3300000x16, .f32⟩
  | .hbm, ⟨83, _⟩ => ⟨S3300000x16, .f32⟩
  | .hbm, ⟨84, _⟩ => ⟨S_, .f32⟩
  | .hbm, ⟨85, _⟩ => ⟨S100000x16, .f32⟩
  | .hbm, ⟨86, _⟩ => ⟨S3300000x1, .i32⟩
  | .hbm, ⟨87, _⟩ => ⟨S100000x16, .f32⟩
  | .hbm, ⟨88, _⟩ => ⟨S1x16, .f32⟩
  | .hbm, ⟨89, _⟩ => ⟨S100000x16, .f32⟩
  | .hbm, ⟨90, _⟩ => ⟨S100000x16, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S100000, .f32⟩
  | .hbm, ⟨95, _⟩ => ⟨S100000, .f32⟩
  | .hbm, ⟨96, _⟩ => ⟨S100000x1, .f32⟩
  | .hbm, ⟨97, _⟩ => ⟨S100000x16, .f32⟩
  | .hbm, ⟨98, _⟩ => ⟨S100000x16, .f32⟩
  | .hbm, ⟨99, _⟩ => ⟨S100000x16, .f32⟩
  | .hbm, ⟨100, _⟩ => ⟨S_, .f32⟩
  | .hbm, ⟨101, _⟩ => ⟨S100000, .f32⟩
  | .hbm, ⟨102, _⟩ => ⟨S100000x1, .f32⟩
  | .hbm, ⟨103, _⟩ => ⟨S100000x1, .f32⟩
  | .hbm, ⟨104, _⟩ => ⟨S100000x16, .f32⟩
  | .hbm, ⟨105, _⟩ => ⟨S100000x16, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_call2_cst : Ref sig .tc := ⟨.hbm, 91, rfl⟩
abbrev main_call2_v0 : Ref sig .tc := ⟨.hbm, 92, rfl⟩
abbrev main_call2_cst_0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_cst_1 : Ref sig .tc := ⟨.hbm, 100, rfl⟩
abbrev main_call2_v7 : Ref sig .tc := ⟨.hbm, 101, rfl⟩
abbrev main_call2_v8 : Ref sig .tc := ⟨.hbm, 102, rfl⟩
abbrev main_call2_v9 : Ref sig .tc := ⟨.hbm, 103, rfl⟩
abbrev main_call2_v10 : Ref sig .tc := ⟨.hbm, 104, rfl⟩
abbrev main_v66 : Ref sig .tc := ⟨.hbm, 105, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf

class Facts : Prop extends Facts₀ where

variable [Facts]
-- ==== Proof.KernelRun.lean ====
/-
  The idealized kernel's run with EVERY unscoped buffer named.

  @main is nine segments: three stretches of host operations, the first dense product as a pipelined region,
  two more stretches, the second dense product, and two closing stretches.  The segments' boundary contents are
  the fold `W0 … W9` through @main; every weakly fair execution terminates, and each unscoped buffer of the
  TensorCore ends holding the last boundary's contents `W9`.  The frame claim keeps only the six arguments of
  this; the value claim needs the result buffer too, so the run is restated here with all of them.
-/
import proofs.«134822_j15762529976717_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every unscoped TensorCore buffer ends at
    the contents the fold through @main's segments gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The run with the result buffer and the six arguments read off: the result holds the last boundary's contents
    at its reference, each argument what it was launched with. -/
theorem run : θ_run defs (onTc (τ := τ) (main (F := F))) ⟨m, fun _ => 0, ρ⟩ (fun r => ∀ c : Dev nD,
      r.2.mem ((c.tc : Thread nD τ).loc main_v66) = W9 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun s h c =>
      ⟨h c _ (mem_uc main_v66 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)
    (run_all m ρ)

end Cert.KernelIdeal.Whole

end
-- ==== Proof.LibPlainMatmul.lean ====
/-
  A plain matrix product read at an index.

  For dimension numbers that contract the left operand's second axis with the right operand's first and have no
  batch axes, the matrix unit's product of `l : [M, K]` and `r : [K, N]` into a zero accumulator is, at `(p, q)`,
  the finite sum `Σ_k l[p, k] · r[k, q]` in the extended reals.  The four coordinate facts of the dimension numbers
  are hypotheses: they are decided, or read off the record, for a program's literal record.
-/
import Idealize.ShloMosaic.PureOps.Ideal.Laws
import Idealize.ShloMosaic.Lib.ValueIdx

noncomputable section

namespace Idealize.ShloMosaic.PlainMatmul

open Idealize.ShloMosaic Idealize.ShloMosaic.ValueIdx

/-- The sum over a one-axis contraction index is the sum over its one coordinate. -/
theorem contr_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- The matrix unit's product into a zero accumulator, read at `(p, q)`. -/
theorem matmul_zero_apply {M K N : Nat} {φ₁ φ₂ : FTy} (d : DotDims ⟨2, ![M, K]⟩ ⟨2, ![K, N]⟩ ⟨2, ![M, N]⟩)
    (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : FVec Ideal ⟨2, ![M, K]⟩ φ₁) (r : FVec Ideal ⟨2, ![K, N]⟩ φ₂) (p : Fin M) (q : Fin N) :
    matmul d prec l r (constant (F := Ideal) ⟨2, ![M, N]⟩ .f32 0x00000000#32) (ix2 p q)
      = ∑ k : Fin K, l (ix2 p k) * r (ix2 k q) := by
  exact (Ideal.matmul_constant_zero_apply d prec l r (ix2 p q)).trans (contr_sum d hr hs hl0 hl1 hr0 hr1 l r p q)

end Idealize.ShloMosaic.PlainMatmul

end
-- ==== Proof.LibMatProd.lean ====
/-
  The matrix product of two arrays as one function of the output index, and the host's `dot_general` as that function.

  `matProd l r` is `(p, q) ↦ Σ_k l[p, k] · r[k, q]` over the extended reals, for `l : [M, K]` and `r : [K, N]` of any
  extents.  For dimension numbers that contract the left operand's second axis with the right operand's first and
  have no batch axes — given, as in LibPlainMatmul.lean, by the four coordinate facts of the record — the host's
  `dot_general` of `l` and `r` at the exact extended reals is `matProd l r`, whatever the precision attribute.
-/
import proofs.«134822_j15762529976717_2_alg».proof.Proof.LibPlainMatmul

noncomputable section

namespace Idealize.ShloMosaic.PlainMatmul

open Idealize.ShloMosaic Idealize.ShloMosaic.ValueIdx

/-- Entry `(p, q)` of the product: the sum over the shared axis of the products of row `p` of `l` and column `q` of `r`. -/
def matProd {M K N : Nat} (l : (⟨2, ![M, K]⟩ : Shape).Idx → EReal) (r : (⟨2, ![K, N]⟩ : Shape).Idx → EReal) :
    (⟨2, ![M, N]⟩ : Shape).Idx → EReal :=
  fun i => ∑ k : Fin K, l (ix2 (i 0) k) * r (ix2 k (i 1))

/-- The product read at an index given by its coordinates. -/
theorem matProd_apply {M K N : Nat} (l : (⟨2, ![M, K]⟩ : Shape).Idx → EReal) (r : (⟨2, ![K, N]⟩ : Shape).Idx → EReal)
    (p : Fin M) (q : Fin N) : matProd l r (ix2 p q) = ∑ k : Fin K, l (ix2 p k) * r (ix2 k q) := rfl

/-- The product read at any index whose coordinates are known as numbers. -/
theorem matProd_at {M K N : Nat} (l : (⟨2, ![M, K]⟩ : Shape).Idx → EReal) (r : (⟨2, ![K, N]⟩ : Shape).Idx → EReal)
    (i : (⟨2, ![M, N]⟩ : Shape).Idx) (p : Fin M) (q : Fin N) (hp : (i 0).val = p.val) (hq : (i 1).val = q.val) :
    matProd l r i = ∑ k : Fin K, l (ix2 p k) * r (ix2 k q) := by
  have e : i = ix2 p q := by
    funext a
    match a with
    | ⟨0, _⟩ => exact Fin.ext hp
    | ⟨1, _⟩ => exact Fin.ext hq
  rw [e]; rfl

/-- The host's `dot_general` with plain dimension numbers is the matrix product, entry by entry. -/
theorem dotGeneral_eq_matProd {M K N : Nat} {φ₁ φ₂ : FTy} (d : DotDims ⟨2, ![M, K]⟩ ⟨2, ![K, N]⟩ ⟨2, ![M, N]⟩)
    (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : FVec Ideal ⟨2, ![M, K]⟩ φ₁) (r : FVec Ideal ⟨2, ![K, N]⟩ φ₂) :
    Host.dotGeneral d prec l r = matProd l r := by
  funext i
  obtain ⟨p, q, rfl⟩ : ∃ (p : Fin M) (q : Fin N), i = ix2 p q := ⟨i 0, i 1, eq_ix2 i⟩
  simp only [Host.dotGeneral]
  rw [Ideal.dotGeneral_apply]
  exact contr_sum d hr hs hl0 hl1 hr0 hr1 l r p q

end Idealize.ShloMosaic.PlainMatmul

end
-- ==== Proof.Dense.lean ====
/-
  The two pipelined regions as matrix products of whole arrays.

  Each region walks 20 row blocks: point `t` reads rows 5000·t … 5000·t + 4999 of its left operand (all columns) and
  the whole right operand, multiplies them on the matrix unit into a zero accumulator — the operands are first
  narrowed to bf16, which at the exact extended reals changes nothing — and writes the product back as rows
  5000·t … 5000·t + 4999 of the result.  So what point `t` writes back is block `t` of ONE array, the matrix product
  of the two whole operands, and since the 20 blocks cover the result's 100000 rows the result ends holding that
  product.  The statements are at any contents `V` the region may be entered with.
-/
import proofs.«134822_j15762529976717_2_alg».proof.Proof.Gen.KernelIdeal.Frame
import proofs.«134822_j15762529976717_2_alg».proof.Proof.LibMatProd
import Idealize.ShloMosaic.Lib.Pipeline.Value
import Idealize.ShloMosaic.Lib.ValueIdx
import Idealize.ShloMosaic.PureOps.Ideal.Laws

set_option maxRecDepth 16384

noncomputable section

namespace Cert.KernelIdeal.Dense

open Cert.KernelIdeal Cert.KernelIdeal.Gen
open Idealize.ShloMosaic Idealize.ShloMosaic.TcCoe Idealize.SL.Sem Idealize.ShloMosaic.ValueIdx
open Idealize.ShloMosaic.PlainMatmul
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-! ## The first product: [100000, 512] × [512, 16] -/

/-- One block's product at `(p, q)`: row `p` of the 5000 loaded rows against column `q` of the weights. -/
theorem block0_apply (x0 : Vec Ideal S5000x512 .f32) (x1 : Vec Ideal S512x16 .f32) (p : Fin 5000) (q : Fin 16) :
    k0_pay1 (F := Ideal) x0 x1 (ix2 p q) = ∑ k : Fin 512, x0 (ix2 p k) * x1 (ix2 k q) := by
  unfold k0_pay1
  exact matmul_zero_apply dot_S5000x512_S512x16_S5000x16_1_0_0_1_n_n none rfl rfl
    (fun i q => by
      unfold DotDims.lhsIdx
      rw [dif_neg (show ¬(0 : Fin S5000x512.rank) ∈ dot_S5000x512_S512x16_S5000x16_1_0_0_1_n_n.lhsBatch by decide), dif_pos (show (0 : Fin S5000x512.rank) ∈ dot_S5000x512_S512x16_S5000x16_1_0_0_1_n_n.lhsNonContracting by decide)]
      rfl)
    (fun i q => dot_S5000x512_S512x16_S5000x16_1_0_0_1_n_n.lhsIdx_val_of_single rfl i q)
    (fun i q => dot_S5000x512_S512x16_S5000x16_1_0_0_1_n_n.rhsIdx_val_of_single rfl i q)
    (fun i q => by
      unfold DotDims.rhsIdx
      rw [dif_neg (show ¬(1 : Fin S512x16.rank) ∈ dot_S5000x512_S512x16_S5000x16_1_0_0_1_n_n.rhsBatch by decide), dif_pos (show (1 : Fin S512x16.rank) ∈ dot_S5000x512_S512x16_S5000x16_1_0_0_1_n_n.rhsNonContracting by decide)]
      rfl)
    _ _ p q

/-- The printed index maps over the grid: the left operand's and the result's row block is the point, every other
    block index is 0. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two whole operands. -/
theorem flushed0_eq (c : Dev nD) (t : Fin cfg0.N) :
    (dat0 V c).flushed 2 t = ((cfg0.win 2).blk t).view.read (Elt Ideal) (matProd (V c main_arg0) (V c main_arg2)) := by
  show (cfg0.win 2).cut (grid0.coords t) ((dat0 V c).after 2 t) = _
  rw [after0_2]
  unfold out0_2
  rw [View.canon_unit_zero offsets_zero]
  simp only [View.ld_unit_zero (S := S5000x512) offsets_zero, View.ld_unit_zero (S := S512x16) offsets_zero]
  obtain ⟨e0, e1, e2, e3, e4, e5⟩ := index0 t
  funext j
  obtain ⟨p, q, rfl⟩ : ∃ (p : Fin 5000) (q : Fin 16), j = ix2 p q := ⟨j 0, j 1, eq_ix2 j⟩
  refine (block0_apply _ _ p q).trans ?_
  rw [View.read_apply]
  have ht : t.val < 20 := lt_of_lt_of_eq t.isLt N_0
  have hrow : ((((cfg0.win 2).blk t).view.emb (ix2 p q)) 0).val = t.val * 5000 + p.val := by
    show win0_2.index t (0 : Fin 2) * 5000 + 1 * p.val = _; omega
  have hcol : ((((cfg0.win 2).blk t).view.emb (ix2 p q)) 1).val = q.val := by
    show win0_2.index t (1 : Fin 2) * 16 + 1 * q.val = _; omega
  refine Eq.trans ?_ (matProd_at (M := 100000) (K := 512) (N := 16) (V c main_arg0) (V c main_arg2) _
    ⟨t.val * 5000 + p.val, by have := p.isLt; omega⟩ q hrow hcol).symm
  refine Finset.sum_congr rfl fun k _ => ?_
  have h0 : iblk0 V c 0 t (ix2 p k) = V c main_arg0 (ix2 (n0 := 100000) (n1 := 512) ⟨t.val * 5000 + p.val, by have := p.isLt; omega⟩ k) := by
    show V c main_arg0 (((cfg0.win 0).blk t).view.emb (ix2 p k)) = _
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 512 + 1 * k.val = k.val; omega
  have h1 : iblk0 V c 1 t (ix2 k q) = V c main_arg2 (ix2 (n0 := 512) (n1 := 16) k q) := by
    show V c main_arg2 (((cfg0.win 1).blk t).view.emb (ix2 k q)) = _
    refine congrArg _ (funext fun a => Fin.ext ?_)
    match a with
    | ⟨0, _⟩ => show win0_1.index t (0 : Fin 2) * 512 + 1 * k.val = k.val; omega
    | ⟨1, _⟩ => show win0_1.index t (1 : Fin 2) * 16 + 1 * q.val = q.val; omega
  rw [h0, h1]

/-- An index of the result is in point `t`'s block iff each coordinate is in the block's range on its axis. -/
theorem mem_block0 (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v31).slice (win0_2.rect t)).set ↔ _
  rw [View.set_slice_whole, Rect.mem_set_unit]
  exact Iff.rfl

/-- Every row of the result is in the block of the point its row number divided by 5000 names. -/
theorem cover0 (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ : ∃ t : Fin cfg0.N, t.val = (i 0).val / 5000 :=
    ⟨⟨(i 0).val / 5000, by rw [show cfg0.N = 20 from N_0]; omega⟩, rfl⟩
  obtain ⟨e0, e1, e2, e3, e4, e5⟩ := index0 t
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- After the first region its result array holds the product of its two operands as the region found them. -/
theorem product0 (c : Dev nD) : (dat0 V c).arrAt 2 cfg0.N = matProd (V c main_arg0) (V c main_arg2) :=
  (dat0 V c).arrAt_eq_of_cover 2 _ (fun t _ => flushed0_eq V c t) cover0

/-! ## The second product: [100000, 16] × [16, 16] -/

/-- One block's product at `(p, q)`, the same for the hidden layer's rows (loaded through a cast to their own shape). -/
theorem block1_apply (x0 : Vec Ideal S5000x16 .f32) (x1 : Vec Ideal S16x16 .f32) (p : Fin 5000) (q : Fin 16) :
    k1_pay1 (F := Ideal) x0 x1 (ix2 p q) = ∑ k : Fin 16, x0 (ix2 p k) * x1 (ix2 k q) := by
  unfold k1_pay1
  simp only [shapeCast_self]
  exact matmul_zero_apply dot_S5000x16_S16x16_S5000x16_1_0_0_1_n_n none rfl rfl
    (fun i q => by
      unfold DotDims.lhsIdx
      rw [dif_neg (show ¬(0 : Fin S5000x16.rank) ∈ dot_S5000x16_S16x16_S5000x16_1_0_0_1_n_n.lhsBatch by decide), dif_pos (show (0 : Fin S5000x16.rank) ∈ dot_S5000x16_S16x16_S5000x16_1_0_0_1_n_n.lhsNonContracting by decide)]
      rfl)
    (fun i q => dot_S5000x16_S16x16_S5000x16_1_0_0_1_n_n.lhsIdx_val_of_single rfl i q)
    (fun i q => dot_S5000x16_S16x16_S5000x16_1_0_0_1_n_n.rhsIdx_val_of_single rfl i q)
    (fun i q => by
      unfold DotDims.rhsIdx
      rw [dif_neg (show ¬(1 : Fin S16x16.rank) ∈ dot_S5000x16_S16x16_S5000x16_1_0_0_1_n_n.rhsBatch by decide), dif_pos (show (1 : Fin S16x16.rank) ∈ dot_S5000x16_S16x16_S5000x16_1_0_0_1_n_n.rhsNonContracting by decide)]
      rfl)
    _ _ p q

/-- The printed index maps over the grid: the left operand's and the result's row block is the point, every other
    block index is 0. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the two whole operands. -/
theorem flushed1_eq (c : Dev nD) (t : Fin cfg1.N) :
    (dat1 V c).flushed 2 t = ((cfg1.win 2).blk t).view.read (Elt Ideal) (matProd (V c main_v48) (V c main_arg4)) := by
  show (cfg1.win 2).cut (grid1.coords t) ((dat1 V c).after 2 t) = _
  rw [after1_2]
  unfold out1_2
  rw [View.canon_unit_zero offsets_zero]
  simp only [View.ld_unit_zero (S := S5000x16) offsets_zero, View.ld_unit_zero (S := S16x16) offsets_zero]
  obtain ⟨e0, e1, e2, e3, e4, e5⟩ := index1 t
  funext j
  obtain ⟨p, q, rfl⟩ : ∃ (p : Fin 5000) (q : Fin 16), j = ix2 p q := ⟨j 0, j 1, eq_ix2 j⟩
  refine (block1_apply _ _ p q).trans ?_
  rw [View.read_apply]
  have ht : t.val < 20 := lt_of_lt_of_eq t.isLt N_1
  have hrow : ((((cfg1.win 2).blk t).view.emb (ix2 p q)) 0).val = t.val * 5000 + p.val := by
    show win1_2.index t (0 : Fin 2) * 5000 + 1 * p.val = _; omega
  have hcol : ((((cfg1.win 2).blk t).view.emb (ix2 p q)) 1).val = q.val := by
    show win1_2.index t (1 : Fin 2) * 16 + 1 * q.val = _; omega
  refine Eq.trans ?_ (matProd_at (M := 100000) (K := 16) (N := 16) (V c main_v48) (V c main_arg4) _
    ⟨t.val * 5000 + p.val, by have := p.isLt; omega⟩ q hrow hcol).symm
  refine Finset.sum_congr rfl fun k _ => ?_
  have h0 : iblk1 V c 0 t (ix2 p k) = V c main_v48 (ix2 (n0 := 100000) (n1 := 16) ⟨t.val * 5000 + p.val, by have := p.isLt; omega⟩ k) := by
    show V c main_v48 (((cfg1.win 0).blk t).view.emb (ix2 p k)) = _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 16 + 1 * k.val = k.val; omega
  have h1 : iblk1 V c 1 t (ix2 k q) = V c main_arg4 (ix2 (n0 := 16) (n1 := 16) k q) := by
    show V c main_arg4 (((cfg1.win 1).blk t).view.emb (ix2 k q)) = _
    refine congrArg _ (funext fun a => Fin.ext ?_)
    match a with
    | ⟨0, _⟩ => show win1_1.index t (0 : Fin 2) * 16 + 1 * k.val = k.val; omega
    | ⟨1, _⟩ => show win1_1.index t (1 : Fin 2) * 16 + 1 * q.val = q.val; omega
  rw [h0, h1]

/-- An index of the result is in point `t`'s block iff each coordinate is in the block's range on its axis. -/
theorem mem_block1 (t : Fin cfg1.N) (i : S100000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v49).slice (win1_2.rect t)).set ↔ _
  rw [View.set_slice_whole, Rect.mem_set_unit]
  exact Iff.rfl

/-- Every row of the result is in the block of the point its row number divided by 5000 names. -/
theorem cover1 (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  obtain ⟨t, ht⟩ : ∃ t : Fin cfg1.N, t.val = (i 0).val / 5000 :=
    ⟨⟨(i 0).val / 5000, by rw [show cfg1.N = 20 from N_1]; omega⟩, rfl⟩
  obtain ⟨e0, e1, e2, e3, e4, e5⟩ := index1 t
  refine ⟨t, flush1_2 t, ?_⟩
  rw [mem_block1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 16 ≤ (i 1).val ∧ (i 1).val < win1_2.index t (1 : Fin 2) * 16 + 16; omega

/-- After the second region its result array holds the product of its two operands as the region found them. -/
theorem product1 (c : Dev nD) : (dat1 V c).arrAt 2 cfg1.N = matProd (V c main_v48) (V c main_arg4) :=
  (dat1 V c).arrAt_eq_of_cover 2 _ (fun t _ => flushed1_eq V c t) cover1

end Cert.KernelIdeal.Dense

end
-- ==== Proof.Layers.lean ====
/-
  The two-layer graph convolution as functions of arrays, in the reference program's own host operations.

  Both programs compute, from the edge list `e : i32[2, 3200000]`:
    row, col  — the edge sources and targets followed by the 100000 self loops (`rowIds`, `colIds`);
    deg       — the number of edges arriving at each node, as a float scatter-add of ones (`degree`);
    dinv      — deg^(-1/2) where deg > 0 and 0 elsewhere (`invSqrtDeg`);
    norm      — dinv[row] · dinv[col], one weight per edge (`edgeNorm`);
  and then, twice, a dense product `h` followed by `propagate h e b`: gather the rows `h[row]`, scale each by its edge
  weight, scatter-add them at `col`, and add the bias.  Between the layers stands max(·, 0) (`relu`); the result is the
  row-wise log-softmax (`logSoftmax`) of the second layer.  `network mm₁ mm₂` composes them around two dense products
  that it takes as parameters: the reference's are the host's `dot_general`, the kernel's are its two pipelined regions.
  Nothing here is ever opened by the proof: the two programs apply these same functions to dense products that are
  proved equal.
-/
import proofs.«134822_j15762529976717_2_alg».proof.ReferenceIdeal
import proofs.«134822_j15762529976717_2_alg».proof.Proof.Gen.ReferenceIdeal

noncomputable section

namespace Cert.Gcn

open Cert.ReferenceIdeal Cert.ReferenceIdeal.Gen Idealize.ShloMosaic Idealize.ShloMosaic.TcCoe Idealize.SL.Sem

variable {F : FTy → Type} [FloatOps F]

/-- The edge sources followed by the self loops 0 … 99999. -/
def rowIds (e : (⟨S2x3200000, .i32⟩ : BufTy).Contents (Elt F)) : (⟨S3300000, .i32⟩ : BufTy).Contents (Elt F) :=
  concatenate S3300000 0 [⟨S3200000, (shapeCast _ (extractStridedSlice S1x3200000 ![0, 0] (e) slices_S2x3200000_S1x3200000_0_0) shapeCasts_S1x3200000_S3200000)⟩, ⟨S100000, (iotaInDim S100000 32 0)⟩] concatenates_S3200000_S100000_S3300000_d0

/-- The edge targets followed by the self loops. -/
def colIds (e : (⟨S2x3200000, .i32⟩ : BufTy).Contents (Elt F)) : (⟨S3300000, .i32⟩ : BufTy).Contents (Elt F) :=
  concatenate S3300000 0 [⟨S3200000, (shapeCast _ (extractStridedSlice S1x3200000 ![1, 0] (e) slices_S2x3200000_S1x3200000_1_0) shapeCasts_S1x3200000_S3200000)⟩, ⟨S100000, (iotaInDim S100000 32 0)⟩] concatenates_S3200000_S100000_S3300000_d0

/-- A node index below zero counts from the end (jnp's indexing rule): `ix + 100000` where `ix < 0`. -/
def wrapIds (ix : (⟨S3300000, .i32⟩ : BufTy).Contents (Elt F)) : (⟨S3300000, .i32⟩ : BufTy).Contents (Elt F) :=
  select (cmpi .slt (ix) (broadcastInDim S3300000 ![] bcast_S_S3300000 (constantI S_ 32 0#32))) (addi (ix) (broadcastInDim S3300000 ![] bcast_S_S3300000 (constantI S_ 32 100000#32))) (ix)

/-- The in-degree of every node, self loop included: ones scatter-added at the targets. -/
def degree (e : (⟨S2x3200000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (broadcastInDim S3300000x1 ![0] bcast_S3300000_S3300000x1_0 (colIds (F := F) e)) (broadcastInDim S3300000 ![] bcast_S_S3300000 (constant S_ .f32 0x3F800000#32))

/-- deg^(-1/2) where the degree is positive, 0 elsewhere. -/
def invSqrtDeg (e : (⟨S2x3200000, .i32⟩ : BufTy).Contents (Elt F)) : (⟨S100000, .f32⟩ : BufTy).Contents (Elt F) :=
  select (cmpf (F := F) .ogt (degree (F := F) e) (broadcastInDim S100000 ![] bcast_S_S100000 (constant S_ .f32 0x00000000#32))) (Host.powf (degree (F := F) e) (broadcastInDim S100000 ![] bcast_S_S100000 (constant S_ .f32 0xBF000000#32))) (broadcastInDim S100000 ![] bcast_S_S100000 (id (constant S_ .f32 0x00000000#32)))

/-- The symmetric normalization's weight of every edge: dinv[row] · dinv[col]. -/
def edgeNorm (e : (⟨S2x3200000, .i32⟩ : BufTy).Contents (Elt F)) : (⟨S3300000, .f32⟩ : BufTy).Contents (Elt F) :=
  mulf (Host.gather gather_S100000_S3300000x1_S3300000_n_0_n_n_0_1_1 (invSqrtDeg (F := F) e) (broadcastInDim S3300000x1 ![0] bcast_S3300000_S3300000x1_0 (wrapIds (F := F) (rowIds (F := F) e)))) (Host.gather gather_S100000_S3300000x1_S3300000_n_0_n_n_0_1_1 (invSqrtDeg (F := F) e) (broadcastInDim S3300000x1 ![0] bcast_S3300000_S3300000x1_0 (wrapIds (F := F) (colIds (F := F) e))))

/-- One aggregation: rows of `h` gathered at the sources, scaled by the edge weights, summed at the targets, plus the bias. -/
def propagate (h : (⟨S100000x16, .f32⟩ : BufTy).Contents (Elt F)) (e : (⟨S2x3200000, .i32⟩ : BufTy).Contents (Elt F)) (b : (⟨S16, .f32⟩ : BufTy).Contents (Elt F)) : (⟨S100000x16, .f32⟩ : BufTy).Contents (Elt F) :=
  addf (Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 (colIds (F := F) e)) (mulf (Host.gather gather_S100000x16_S3300000x1_S3300000x16_1_0_n_n_0_1_116 (h) (broadcastInDim S3300000x1 ![0] bcast_S3300000_S3300000x1_0 (wrapIds (F := F) (rowIds (F := F) e)))) (broadcastInDim S3300000x16 ![0, 1] bcast_S3300000x1_S3300000x16_0_1 (broadcastInDim S3300000x1 ![0] bcast_S3300000_S3300000x1_0 (edgeNorm (F := F) e))))) (broadcastInDim S100000x16 ![0, 1] bcast_S1x16_S100000x16_0_1 (broadcastInDim S1x16 ![1] bcast_S16_S1x16_1 (b)))

/-- max(z, 0), entry by entry. -/
def relu (z : (⟨S100000x16, .f32⟩ : BufTy).Contents (Elt F)) : (⟨S100000x16, .f32⟩ : BufTy).Contents (Elt F) :=
  maximumf (z) (broadcastInDim S100000x16 ![] bcast_S_S100000x16 (constant S_ .f32 0x00000000#32))

/-- Every row less its maximum. -/
def shifted (z : (⟨S100000x16, .f32⟩ : BufTy).Contents (Elt F)) : (⟨S100000x16, .f32⟩ : BufTy).Contents (Elt F) :=
  subf (z) (broadcastInDim S100000x16 ![0, 1] bcast_S100000x1_S100000x16_0_1 (broadcastInDim S100000x1 ![0] bcast_S100000_S100000x1_0 (maximumf (broadcastInDim S100000 ![] bcast_S_S100000 (constant S_ .f32 0xFF800000#32)) (Host.reduce FloatOps.maximumf (z) (constant S_ .f32 0xFF800000#32) reducesTo_S100000x16_S100000_d1 h_S_))))

/-- The row-wise log-softmax: the shifted row less the logarithm of the sum of its exponentials. -/
def logSoftmax (z : (⟨S100000x16, .f32⟩ : BufTy).Contents (Elt F)) : (⟨S100000x16, .f32⟩ : BufTy).Contents (Elt F) :=
  subf (shifted (F := F) z) (broadcastInDim S100000x16 ![0, 1] bcast_S100000x1_S100000x16_0_1 (Host.log (broadcastInDim S100000x1 ![0] bcast_S100000_S100000x1_0 (Host.reduceAdd (Host.exp (shifted (F := F) z)) (constant S_ .f32 0x00000000#32) reducesTo_S100000x16_S100000_d1 h_S_))))

/-- The whole network around two dense products `mm₁ : [100000,512] × [512,16]` and `mm₂ : [100000,16] × [16,16]`. -/
def network
    (mm₁ : (⟨S100000x512, .f32⟩ : BufTy).Contents (Elt F) → (⟨S512x16, .f32⟩ : BufTy).Contents (Elt F) → (⟨S100000x16, .f32⟩ : BufTy).Contents (Elt F))
    (mm₂ : (⟨S100000x16, .f32⟩ : BufTy).Contents (Elt F) → (⟨S16x16, .f32⟩ : BufTy).Contents (Elt F) → (⟨S100000x16, .f32⟩ : BufTy).Contents (Elt F))
    (x : (⟨S100000x512, .f32⟩ : BufTy).Contents (Elt F)) (e : (⟨S2x3200000, .i32⟩ : BufTy).Contents (Elt F))
    (w₁ : (⟨S512x16, .f32⟩ : BufTy).Contents (Elt F)) (b₁ : (⟨S16, .f32⟩ : BufTy).Contents (Elt F))
    (w₂ : (⟨S16x16, .f32⟩ : BufTy).Contents (Elt F)) (b₂ : (⟨S16, .f32⟩ : BufTy).Contents (Elt F)) :
    (⟨S100000x16, .f32⟩ : BufTy).Contents (Elt F) :=
  logSoftmax (F := F) (propagate (F := F) (mm₂ (relu (F := F) (propagate (F := F) (mm₁ x w₁) e b₁)) w₂) e b₂)

end Cert.Gcn

end
-- ==== Proof.LibTypedRefCasts.lean ====
/-
  Typed references: carrying contents to a buffer's own type and back.

  A host operation stated over TYPED references (an outlined function's operations are) reads each operand through
  `TRef.ofBuf` and writes its result through `TRef.toBuf`: transports of contents along the reference's type equation
  `ref.ty = T`.  Reading back what was just carried over gives the contents again, and where the value's type IS the
  buffer's type by definition the transport does nothing.  Stated as equations for rewriting, for any signature and
  any element contents:
    * `ofBuf_toBuf`: x.ofBuf (x.toBuf v) = v;
    * `toBuf_self` / `ofBuf_self`: for a literal reference typed at its own type, the transport is the identity.
  With them the transports in a host line's composed term are removed by rewriting, leaving the operations' plain term.
-/
import Idealize.ShloMosaic.Lib.StableHlo

namespace Cert.Lib.TypedRefCasts

open Idealize.ShloMosaic Idealize.ShloMosaic.StableHlo

variable {sig : RefSig} {Val : EltTy → Type}

/-- Contents carried to a buffer's own type and back are the contents. -/
theorem ofBuf_toBuf {T : BufTy} (x : TRef sig T) (v : T.Contents Val) : x.ofBuf (x.toBuf v) = v := by
  unfold TRef.ofBuf TRef.toBuf
  rw [cast_cast, cast_eq]

/-- Transport to a buffer whose type is the value's by definition does nothing. -/
theorem toBuf_self (r : Ref sig .tc) (h2 : r.space ≠ .host) (h3 : r.isScoped = false) (v : r.ty.Contents Val) :
    (TRef.of (T := r.ty) r rfl h2 h3).toBuf v = v := rfl

/-- Transport from a buffer whose type is the value's by definition does nothing. -/
theorem ofBuf_self (r : Ref sig .tc) (h2 : r.space ≠ .host) (h3 : r.isScoped = false) (v : r.ty.Contents Val) :
    (TRef.of (T := r.ty) r rfl h2 h3).ofBuf v = v := rfl

end Cert.Lib.TypedRefCasts
-- ==== Proof.KernelValue.lean ====
/-
  What the idealized kernel's result buffer holds after the run, as the network of Layers.lean around two matrix
  products.

  The run's boundary contents `W0 … W9` are followed stage by stage.  Before the first region the host computes, from
  the edge list alone, the edge sources and targets with the self loops appended and the edges' normalization weights
  (`rowIds`, `colIds`, `edgeNorm`); the regions and the later stretches write none of these three buffers, so they
  are the same at every later boundary.  The first region leaves `x · W1` in its result (Dense.lean); the stretch after
  it is one aggregation and max(·, 0); the second region leaves the product of that with `W2`; the closing stretches
  are the second aggregation and the row-wise log-softmax.
-/
import proofs.«134822_j15762529976717_2_alg».proof.Proof.Dense
import proofs.«134822_j15762529976717_2_alg».proof.Proof.Layers
import proofs.«134822_j15762529976717_2_alg».proof.Proof.LibTypedRefCasts
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo
open Idealize.ShloMosaic.PlainMatmul
open Cert.Gcn Cert.Lib.TypedRefCasts

variable (m : (ℓ : Loc nD τ sig) → Buf (Elt Ideal) ℓ) (ρ : Dev nD → PrngReg)

/-- Reads the buffers that stand inside the operand pairs of a two-operand concatenate: the slice of the edge list,
    its reshape to a vector, and the iota of the self loops. -/
local macro "pair_results" : tactic =>
  `(tactic| repeat (first
      | rw [StableHlo.reshape_result] | rw [StableHlo.unary_result] | rw [StableHlo.nullary_result]
      | (rw [StableHlo.nullary_result_ne]; rotate_left; decide)
      | (rw [StableHlo.unary_result_ne]; rotate_left; decide)
      | (rw [StableHlo.binary_result_ne]; rotate_left; decide)
      | (rw [StableHlo.reshape_result_ne]; rotate_left; decide)))

/-! ## Before the first region -/

theorem W3_x (c : Dev nD) : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results_simp

theorem W3_w1 (c : Dev nD) : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  after_results_simp

theorem W3_row (c : Dev nD) : W3 m ρ c (Proc.devRef .tc main_v3) = rowIds (F := Ideal) (m ((c.tc : Thread nD τ).loc main_arg1)) := by
  show StableHlo.after hostOps0_2 (StableHlo.after hostOps0_1 (StableHlo.after hostOps0 (W0 m ρ c))) (Proc.devRef .tc main_v3) = _
  after_results_simp
  pair_results
  rfl

theorem W3_col (c : Dev nD) : W3 m ρ c (Proc.devRef .tc main_v6) = colIds (F := Ideal) (m ((c.tc : Thread nD τ).loc main_arg1)) := by
  show StableHlo.after hostOps0_2 (StableHlo.after hostOps0_1 (StableHlo.after hostOps0 (W0 m ρ c))) (Proc.devRef .tc main_v6) = _
  after_results_simp
  pair_results
  rfl

set_option maxHeartbeats 4000000 in
theorem W3_norm (c : Dev nD) : W3 m ρ c (Proc.devRef .tc main_v30) = edgeNorm (F := Ideal) (m ((c.tc : Thread nD τ).loc main_arg1)) := by
  show StableHlo.after hostOps0_2 (StableHlo.after hostOps0_1 (StableHlo.after hostOps0 (W0 m ρ c))) (Proc.devRef .tc main_v30) = _
  after_results_simp
  pair_results
  simp only [ofBuf_toBuf]
  rw [toBuf_self main_v15, ofBuf_self main_v12, ofBuf_self main_v14, ofBuf_self main_cst_3]
  rfl

/-! ## The first region and what it leaves untouched -/

/-- The first region's result: `x · W1`. -/
theorem W4_dense (c : Dev nD) :
    W4 m ρ c (Proc.devRef .tc main_v31) = matProd (M := 100000) (K := 512) (N := 16) (m ((c.tc : Thread nD τ).loc main_arg0)) (m ((c.tc : Thread nD τ).loc main_arg2)) := by
  refine (W4_arr m ρ c 2).trans ((Dense.product0 (V3 m ρ) c).trans ?_)
  show matProd (M := 100000) (K := 512) (N := 16) (W3 m ρ c (Proc.devRef .tc main_arg0)) (W3 m ρ c (Proc.devRef .tc main_arg2)) = _
  rw [W3_x, W3_w1]

theorem W4_row (c : Dev nD) : W4 m ρ c (Proc.devRef .tc main_v3) = rowIds (F := Ideal) (m ((c.tc : Thread nD τ).loc main_arg1)) :=
  (W4_of_ne m ρ c main_v3 (by decide)).trans (W3_row m ρ c)

theorem W4_col (c : Dev nD) : W4 m ρ c (Proc.devRef .tc main_v6) = colIds (F := Ideal) (m ((c.tc : Thread nD τ).loc main_arg1)) :=
  (W4_of_ne m ρ c main_v6 (by decide)).trans (W3_col m ρ c)

theorem W4_norm (c : Dev nD) : W4 m ρ c (Proc.devRef .tc main_v30) = edgeNorm (F := Ideal) (m ((c.tc : Thread nD τ).loc main_arg1)) :=
  (W4_of_ne m ρ c main_v30 (by decide)).trans (W3_norm m ρ c)

theorem W4_b1 (c : Dev nD) : W4 m ρ c (Proc.devRef .tc main_arg3) = (m ((c.tc : Thread nD τ).loc main_arg3)) := by
  refine (W4_of_ne m ρ c main_arg3 (by decide)).trans ?_
  show StableHlo.after hostOps0_2 (StableHlo.after hostOps0_1 (StableHlo.after hostOps0 (W0 m ρ c))) (Proc.devRef .tc main_arg3) = _
  after_results_simp

theorem W4_w2 (c : Dev nD) : W4 m ρ c (Proc.devRef .tc main_arg4) = (m ((c.tc : Thread nD τ).loc main_arg4)) := by
  refine (W4_of_ne m ρ c main_arg4 (by decide)).trans ?_
  show StableHlo.after hostOps0_2 (StableHlo.after hostOps0_1 (StableHlo.after hostOps0 (W0 m ρ c))) (Proc.devRef .tc main_arg4) = _
  after_results_simp

theorem W4_b2 (c : Dev nD) : W4 m ρ c (Proc.devRef .tc main_arg5) = (m ((c.tc : Thread nD τ).loc main_arg5)) := by
  refine (W4_of_ne m ρ c main_arg5 (by decide)).trans ?_
  show StableHlo.after hostOps0_2 (StableHlo.after hostOps0_1 (StableHlo.after hostOps0 (W0 m ρ c))) (Proc.devRef .tc main_arg5) = _
  after_results_simp

/-! ## Between the regions: one aggregation and max(·, 0) -/

/-- The hidden layer as the second region finds it. -/
theorem W6_hidden (c : Dev nD) :
    W6 m ρ c (Proc.devRef .tc main_v48)
      = relu (F := Ideal) (propagate (F := Ideal) (matProd (M := 100000) (K := 512) (N := 16) (m ((c.tc : Thread nD τ).loc main_arg0)) (m ((c.tc : Thread nD τ).loc main_arg2))) (m ((c.tc : Thread nD τ).loc main_arg1)) (m ((c.tc : Thread nD τ).loc main_arg3))) := by
  show StableHlo.after hostOps1_1 (StableHlo.after hostOps1 (W4 m ρ c)) (Proc.devRef .tc main_v48) = _
  after_results_simp
  simp only [ofBuf_toBuf]
  rw [toBuf_self main_v48, ofBuf_self main_v47, W4_dense, W4_row, W4_col, W4_norm, W4_b1]
  rfl

theorem W6_keep (c : Dev nD) (b : Ref sig .tc) (h : StableHlo.after hostOps1_1 (StableHlo.after hostOps1 (W4 m ρ c)) (Proc.devRef .tc b) = W4 m ρ c (Proc.devRef .tc b)) :
    W6 m ρ c (Proc.devRef .tc b) = W4 m ρ c (Proc.devRef .tc b) := h

theorem W6_row (c : Dev nD) : W6 m ρ c (Proc.devRef .tc main_v3) = rowIds (F := Ideal) (m ((c.tc : Thread nD τ).loc main_arg1)) :=
  (W6_keep m ρ c main_v3 (by after_results_simp)).trans (W4_row m ρ c)

theorem W6_col (c : Dev nD) : W6 m ρ c (Proc.devRef .tc main_v6) = colIds (F := Ideal) (m ((c.tc : Thread nD τ).loc main_arg1)) :=
  (W6_keep m ρ c main_v6 (by after_results_simp)).trans (W4_col m ρ c)

theorem W6_norm (c : Dev nD) : W6 m ρ c (Proc.devRef .tc main_v30) = edgeNorm (F := Ideal) (m ((c.tc : Thread nD τ).loc main_arg1)) :=
  (W6_keep m ρ c main_v30 (by after_results_simp)).trans (W4_norm m ρ c)

theorem W6_w2 (c : Dev nD) : W6 m ρ c (Proc.devRef .tc main_arg4) = (m ((c.tc : Thread nD τ).loc main_arg4)) :=
  (W6_keep m ρ c main_arg4 (by after_results_simp)).trans (W4_w2 m ρ c)

theorem W6_b2 (c : Dev nD) : W6 m ρ c (Proc.devRef .tc main_arg5) = (m ((c.tc : Thread nD τ).loc main_arg5)) :=
  (W6_keep m ρ c main_arg5 (by after_results_simp)).trans (W4_b2 m ρ c)

/-! ## The second region -/

/-- The second region's result: the hidden layer times `W2`. -/
theorem W7_dense (c : Dev nD) :
    W7 m ρ c (Proc.devRef .tc main_v49)
      = matProd (M := 100000) (K := 16) (N := 16)
          (relu (F := Ideal) (propagate (F := Ideal) (matProd (M := 100000) (K := 512) (N := 16) (m ((c.tc : Thread nD τ).loc main_arg0)) (m ((c.tc : Thread nD τ).loc main_arg2))) (m ((c.tc : Thread nD τ).loc main_arg1)) (m ((c.tc : Thread nD τ).loc main_arg3)))) (m ((c.tc : Thread nD τ).loc main_arg4)) := by
  refine (W7_arr m ρ c 2).trans ((Dense.product1 (V6 m ρ) c).trans ?_)
  show matProd (M := 100000) (K := 16) (N := 16) (W6 m ρ c (Proc.devRef .tc main_v48)) (W6 m ρ c (Proc.devRef .tc main_arg4)) = _
  rw [W6_hidden, W6_w2]

theorem W7_row (c : Dev nD) : W7 m ρ c (Proc.devRef .tc main_v3) = rowIds (F := Ideal) (m ((c.tc : Thread nD τ).loc main_arg1)) :=
  (W7_of_ne m ρ c main_v3 (by decide)).trans (W6_row m ρ c)

theorem W7_col (c : Dev nD) : W7 m ρ c (Proc.devRef .tc main_v6) = colIds (F := Ideal) (m ((c.tc : Thread nD τ).loc main_arg1)) :=
  (W7_of_ne m ρ c main_v6 (by decide)).trans (W6_col m ρ c)

theorem W7_norm (c : Dev nD) : W7 m ρ c (Proc.devRef .tc main_v30) = edgeNorm (F := Ideal) (m ((c.tc : Thread nD τ).loc main_arg1)) :=
  (W7_of_ne m ρ c main_v30 (by decide)).trans (W6_norm m ρ c)

theorem W7_b2 (c : Dev nD) : W7 m ρ c (Proc.devRef .tc main_arg5) = (m ((c.tc : Thread nD τ).loc main_arg5)) :=
  (W7_of_ne m ρ c main_arg5 (by decide)).trans (W6_b2 m ρ c)

/-! ## After the second region: the second aggregation and the log-softmax -/

set_option maxHeartbeats 1000000 in
/-- The result buffer after the run: the network around the two matrix products. -/
theorem result (c : Dev nD) :
    W9 m ρ c (Proc.devRef .tc main_v66)
      = network (F := Ideal) (matProd (M := 100000) (K := 512) (N := 16)) (matProd (M := 100000) (K := 16) (N := 16))
          (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show StableHlo.after hostOps2_1 (StableHlo.after hostOps2 (W7 m ρ c)) (Proc.devRef .tc main_v66) = _
  after_results_simp
  simp only [ofBuf_toBuf]
  rw [toBuf_self main_v66, ofBuf_self main_v65, W7_dense, W7_row, W7_col, W7_norm, W7_b2]
  rfl

end Cert.KernelIdeal.Stages

end
-- ==== Proof.RefValue.lean ====
/-
  The reference's result as the network of Layers.lean around two matrix products.

  The reference program is the same host operations as the kernel's program with the host's `dot_general` where the
  kernel launches its regions.  Its run ends with the result buffer at the operations' composed term of the
  arguments; folding the term's parts back into their names gives `network` around the two `dot_general`s, and at
  the exact extended reals a `dot_general` contracting the left operand's columns with the right operand's rows is
  the matrix product entry by entry.
-/
import proofs.«134822_j15762529976717_2_alg».proof.Proof.ReferenceRun
import proofs.«134822_j15762529976717_2_alg».proof.Proof.Layers
import proofs.«134822_j15762529976717_2_alg».proof.Proof.LibMatProd

noncomputable section

namespace Cert.ReferenceIdeal.Net

open Cert.ReferenceIdeal Cert.ReferenceIdeal.Gen
open Idealize.ShloMosaic Idealize.ShloMosaic.TcCoe Idealize.SL.Sem
open Idealize.ShloMosaic.PlainMatmul
open Cert.Gcn

/-- The first layer's `dot_general` is the product of `x` and `W1`. -/
theorem dense1 (x : FVec Ideal S100000x512 .f32) (w : FVec Ideal S512x16 .f32) :
    Host.dotGeneral dot_S100000x512_S512x16_S100000x16_1_0_0_1_n_n none x w = matProd (M := 100000) (K := 512) (N := 16) x w :=
  dotGeneral_eq_matProd dot_S100000x512_S512x16_S100000x16_1_0_0_1_n_n none rfl rfl
    (fun i q => by
      unfold DotDims.lhsIdx
      rw [dif_neg (show ¬(0 : Fin S100000x512.rank) ∈ dot_S100000x512_S512x16_S100000x16_1_0_0_1_n_n.lhsBatch by decide), dif_pos (show (0 : Fin S100000x512.rank) ∈ dot_S100000x512_S512x16_S100000x16_1_0_0_1_n_n.lhsNonContracting by decide)]
      rfl)
    (fun i q => dot_S100000x512_S512x16_S100000x16_1_0_0_1_n_n.lhsIdx_val_of_single rfl i q)
    (fun i q => dot_S100000x512_S512x16_S100000x16_1_0_0_1_n_n.rhsIdx_val_of_single rfl i q)
    (fun i q => by
      unfold DotDims.rhsIdx
      rw [dif_neg (show ¬(1 : Fin S512x16.rank) ∈ dot_S100000x512_S512x16_S100000x16_1_0_0_1_n_n.rhsBatch by decide), dif_pos (show (1 : Fin S512x16.rank) ∈ dot_S100000x512_S512x16_S100000x16_1_0_0_1_n_n.rhsNonContracting by decide)]
      rfl)
    x w

/-- The second layer's `dot_general` is the product of the hidden layer and `W2`. -/
theorem dense2 (x : FVec Ideal S100000x16 .f32) (w : FVec Ideal S16x16 .f32) :
    Host.dotGeneral dot_S100000x16_S16x16_S100000x16_1_0_0_1_n_n none x w = matProd (M := 100000) (K := 16) (N := 16) x w :=
  dotGeneral_eq_matProd dot_S100000x16_S16x16_S100000x16_1_0_0_1_n_n none rfl rfl
    (fun i q => by
      unfold DotDims.lhsIdx
      rw [dif_neg (show ¬(0 : Fin S100000x16.rank) ∈ dot_S100000x16_S16x16_S100000x16_1_0_0_1_n_n.lhsBatch by decide), dif_pos (show (0 : Fin S100000x16.rank) ∈ dot_S100000x16_S16x16_S100000x16_1_0_0_1_n_n.lhsNonContracting by decide)]
      rfl)
    (fun i q => dot_S100000x16_S16x16_S100000x16_1_0_0_1_n_n.lhsIdx_val_of_single rfl i q)
    (fun i q => dot_S100000x16_S16x16_S100000x16_1_0_0_1_n_n.rhsIdx_val_of_single rfl i q)
    (fun i q => by
      unfold DotDims.rhsIdx
      rw [dif_neg (show ¬(1 : Fin S16x16.rank) ∈ dot_S100000x16_S16x16_S100000x16_1_0_0_1_n_n.rhsBatch by decide), dif_pos (show (1 : Fin S16x16.rank) ∈ dot_S100000x16_S16x16_S100000x16_1_0_0_1_n_n.rhsNonContracting by decide)]
      rfl)
    x w

variable (m : (ℓ : Loc nD τ sig) → Buf (Elt Ideal) ℓ)

set_option maxRecDepth 65536 in
/-- The run's composed term is the network around the host's two `dot_general`s: the same operations, named. -/
theorem result_net (c : Dev nD) :
    ValueP.res_main_v66 (F := Ideal) m c
      = network (F := Ideal) (fun (l : FVec Ideal S100000x512 .f32) (r : FVec Ideal S512x16 .f32) => Host.dotGeneral dot_S100000x512_S512x16_S100000x16_1_0_0_1_n_n none l r)
          (fun (l : FVec Ideal S100000x16 .f32) (r : FVec Ideal S16x16 .f32) => Host.dotGeneral dot_S100000x16_S16x16_S100000x16_1_0_0_1_n_n none l r)
          (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold ValueP.res_main_v66
  rfl

/-- The reference's result: the network around the two matrix products. -/
theorem result_eq (c : Dev nD) :
    ValueP.res_main_v66 (F := Ideal) m c
      = network (F := Ideal) (matProd (M := 100000) (K := 512) (N := 16)) (matProd (M := 100000) (K := 16) (N := 16))
          (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [result_net]
  have e1 : (fun (l : FVec Ideal S100000x512 .f32) (r : FVec Ideal S512x16 .f32) => Host.dotGeneral dot_S100000x512_S512x16_S100000x16_1_0_0_1_n_n none l r)
      = matProd (M := 100000) (K := 512) (N := 16) := funext fun l => funext fun r => dense1 l r
  have e2 : (fun (l : FVec Ideal S100000x16 .f32) (r : FVec Ideal S16x16 .f32) => Host.dotGeneral dot_S100000x16_S16x16_S100000x16_1_0_0_1_n_n none l r)
      = matProd (M := 100000) (K := 16) (N := 16) := funext fun l => funext fun r => dense2 l r
  rw [e1, e2]

end Cert.ReferenceIdeal.Net

end
-- ==== Proof.lean ====
/-
  A two-layer graph convolution with symmetric normalization and a row-wise log-softmax, over 100000 nodes with 512
  features, 3200000 edges and 16 hidden and output channels: the kernel's program against the plain reference.

  Both programs are the same host operations — the self loops appended to the edge list, the in-degrees as a
  scatter-add of ones, deg^(-1/2) where the degree is positive, the edge weights dinv[row] · dinv[col], and twice
  "dense product, gather the source rows, scale by the edge weight, scatter-add at the targets, add the bias", with
  max(·, 0) between and the log-softmax after — except for the two dense products: the reference takes the host's
  `dot_general`, the kernel runs each as a pipelined region of 20 row blocks of 5000 rows on the matrix unit, the
  operands narrowed to bf16 on the way in.  At the exact extended reals the narrowing is the identity and a block's
  product into a zero accumulator is the plain sum Σ_k l[p,k] · r[k,q], so each region leaves the matrix product of its
  whole operands (Proof/Dense.lean) and so does each `dot_general` (Proof/RefValue.lean); every other operation is the
  same function on both sides (Proof/Layers.lean names them; they are never opened).  No law of the extended reals
  beyond the definition of the two sums is used, so the precondition is not needed for the equality.

  The frames of the kernel's two programs are the generated ones; the reference's frame is its run with the result
  dropped.  The kernel's idealization rewrote no operation, so there is nothing to preserve.
-/
import proofs.«134822_j15762529976717_2_alg».proof.Defs
import proofs.«134822_j15762529976717_2_alg».proof.Proof.Gen.Kernel
import proofs.«134822_j15762529976717_2_alg».proof.Proof.Gen.Kernel.Skeleton
import proofs.«134822_j15762529976717_2_alg».proof.Proof.Gen.Kernel.Launch
import proofs.«134822_j15762529976717_2_alg».proof.Proof.Gen.Kernel.Points
import proofs.«134822_j15762529976717_2_alg».proof.Proof.Gen.Kernel.Frame
import proofs.«134822_j15762529976717_2_alg».proof.Proof.Gen.KernelIdeal
import proofs.«134822_j15762529976717_2_alg».proof.Proof.Gen.KernelIdeal.Skeleton
import proofs.«134822_j15762529976717_2_alg».proof.Proof.Gen.KernelIdeal.Launch
import proofs.«134822_j15762529976717_2_alg».proof.Proof.Gen.KernelIdeal.Points
import proofs.«134822_j15762529976717_2_alg».proof.Proof.Gen.KernelIdeal.Frame
import proofs.«134822_j15762529976717_2_alg».proof.Proof.Gen.ReferenceIdeal
import proofs.«134822_j15762529976717_2_alg».proof.Proof.Gen.Pre_finite_inputs
import proofs.«134822_j15762529976717_2_alg».proof.Proof.KernelRun
import proofs.«134822_j15762529976717_2_alg».proof.Proof.KernelValue
import proofs.«134822_j15762529976717_2_alg».proof.Proof.RefValue
import Idealize.ShloMosaic.Adequacy
import Idealize.ShloMosaic.Init

noncomputable section

namespace Cert.Proof

open Idealize.ShloMosaic Idealize.SL.Sem Idealize.ShloMosaic.PlainMatmul

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end with the result at the network around the two matrix products of the (agreeing) arguments. -/
theorem algebraic : Cert.algebraic_KernelIdeal_ReferenceIdeal := by
  intro m ρ m' ρ' _ hagree
  refine ⟨fun c => Cert.Gcn.network (F := Ideal) (matProd (M := 100000) (K := 512) (N := 16)) (matProd (M := 100000) (K := 16) (N := 16))
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Stages.result m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.Net.result_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
